-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S64x128 : Shape := ⟨2, ![64, 128]⟩
abbrev S1x128 : Shape := ⟨2, ![1, 128]⟩
abbrev S200x10000 : Shape := ⟨2, ![200, 10000]⟩
abbrev S200x128 : Shape := ⟨2, ![200, 128]⟩

abbrev nBuf : Space → Nat
  | .hbm => 14
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S_, .f32⟩
  | .hbm, ⟨7, _⟩ => ⟨S64x128, .f32⟩
  | .hbm, ⟨8, _⟩ => ⟨S64x128, .f32⟩
  | .hbm, ⟨9, _⟩ => ⟨S128x128, .f32⟩
  | .hbm, ⟨10, _⟩ => ⟨S64x128, .f32⟩
  | .hbm, ⟨11, _⟩ => ⟨S128x128, .f32⟩
  | .hbm, ⟨12, _⟩ => ⟨S1x128, .f32⟩
  | .hbm, ⟨13, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S200x128, .f32⟩
  | .local _ .vmem, ⟨9, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x128_S128x128_1_0 : S128x128.Transposes [1, 0] S128x128
  bcast_S_S64x128 : S_.BroadcastsInDim S64x128 (![] : Fin 0 → Fin S64x128.rank)
  slices_S128x128_S64x128_0_0 : S128x128.Slices ![0, 0] S64x128
  concatenates_S64x128_S64x128_S128x128_d0 : Shape.Concatenates [S64x128, S64x128] S128x128 0
  slices_S128x128_S64x128_64_0 : S128x128.Slices ![64, 0] S64x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S200x10000_S200x10000_0_0 : ∀ a, (![0, 0] : Fin 2 → Nat) a + S200x10000.size a ≤ S200x10000.size a
  h_S200x10000 : 0 < S200x10000.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S10000x128.size a
  hwx0_6 : ∀ i : grid0.Coords, EltTy.bits .f32 = 32 ∨ (Rect.block (s := S10000x128) S200x128.size (cc0_transform_6 i) (hinb0_6 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10000x64 : Shape := ⟨2, ![10000, 64]⟩
abbrev S1x128 : Shape := ⟨2, ![1, 128]⟩

abbrev nBuf : Space → Nat
  | .hbm => 15
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S10000x64, .f32⟩
  | .hbm, ⟨6, _⟩ => ⟨S10000x64, .f32⟩
  | .hbm, ⟨7, _⟩ => ⟨S10000x64, .f32⟩
  | .hbm, ⟨8, _⟩ => ⟨S10000x64, .f32⟩
  | .hbm, ⟨9, _⟩ => ⟨S10000x128, .f32⟩
  | .hbm, ⟨10, _⟩ => ⟨S128x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  slices_S10000x128_S10000x64_0_0 : S10000x128.Slices ![0, 0] S10000x64
  slices_S10000x128_S10000x64_0_64 : S10000x128.Slices ![0, 64] S10000x64
  concatenates_S10000x64_S10000x64_S10000x128_d1 : Shape.Concatenates [S10000x64, S10000x64] S10000x128 1
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x64_S10000x64_1_0_0_1_n_n_wf : DotDims.WF S10000x10000 S10000x64 S10000x64 [1] [0] [0] [1] [] []
  dot_S10000x128_S128x128_S10000x128_1_0_0_1_n_n_wf : DotDims.WF S10000x128 S128x128 S10000x128 [1] [0] [0] [1] [] []

variable [Facts₀]

def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Layer.lean ====
/-
  The value both programs compute, stated once over the five argument arrays and over no program.

  With `x : [10000, 128]`, `adj1 adj2 : [10000, 10000]`, `W : [128, 128]`, `b : [128]` the layer is
      out[r, o] = Σ_k hidden[r, k] · W[o, k] + b[o],
  where column `k` of the hidden activation comes from the first graph for `k < 64` and from the second for
  `k ≥ 64`:  hidden[r, k] = Σ_j adj1[r, j] · x[j, k]  resp.  Σ_j adj2[r, j] · x[j, k].

  The fused form multiplies BOTH full aggregations `adj1 · x` and `adj2 · x` (all 128 columns each) by a weight
  matrix whose unused half is zero:  W₁[k, o] = W[o, k] for k < 64 and 0 otherwise, W₂ the complement.  The two forms
  agree on the extended reals with no finiteness assumption: the only facts used are that a sum of two sums over one
  index set is the sum of the termwise sums, and `a · 0 = 0` for EVERY extended real `a` (Mathlib's convention
  `⊤ · 0 = 0`), so the terms of the unused half vanish whatever the aggregation there is.
-/
import Idealize.ShloMosaic.PureOps.Ideal
import Idealize.ShloMosaic.Lib.ValueIdx

noncomputable section

open scoped BigOperators

namespace Cert.GraphLayer

open Idealize.ShloMosaic Idealize.ShloMosaic.ValueIdx

/-- The node features' shape, also the result's. -/
abbrev SX : Shape := ⟨2, ![10000, 128]⟩
/-- An adjacency matrix's shape. -/
abbrev SA : Shape := ⟨2, ![10000, 10000]⟩
/-- The weight's shape. -/
abbrev SW : Shape := ⟨2, ![128, 128]⟩
/-- The bias's shape. -/
abbrev SB : Shape := ⟨1, ![128]⟩

/-- Entry `(r, k)` of the aggregation `adj · x`. -/
def agg (adj : SA.Idx → EReal) (x : SX.Idx → EReal) (r : Fin 10000) (k : Fin 128) : EReal :=
  ∑ j : Fin 10000, adj (ix2 r j) * x (ix2 j k)

/-- Entry `(r, k)` of the hidden activation: the first graph's aggregation on the low 64 columns, the second's on the
    high 64. -/
def hiddenAt (x : SX.Idx → EReal) (adj1 adj2 : SA.Idx → EReal) (r : Fin 10000) (k : Fin 128) : EReal :=
  if k.val < 64 then agg adj1 x r k else agg adj2 x r k

/-- Entry `(r, o)` of the layer's result. -/
def layerAt (x : SX.Idx → EReal) (adj1 adj2 : SA.Idx → EReal) (W : SW.Idx → EReal) (b : SB.Idx → EReal)
    (r : Fin 10000) (o : Fin 128) : EReal :=
  (∑ k : Fin 128, hiddenAt x adj1 adj2 r k * W (ix2 o k)) + b (ix1 o)

/-- The layer's result as an array. -/
def layer (x : SX.Idx → EReal) (adj1 adj2 : SA.Idx → EReal) (W : SW.Idx → EReal) (b : SB.Idx → EReal) :
    SX.Idx → EReal :=
  fun i => layerAt x adj1 adj2 W b (i 0) (i 1)

theorem layer_ix2 (x : SX.Idx → EReal) (adj1 adj2 : SA.Idx → EReal) (W : SW.Idx → EReal) (b : SB.Idx → EReal)
    (r : Fin 10000) (o : Fin 128) : layer x adj1 adj2 W b (ix2 r o) = layerAt x adj1 adj2 W b r o := rfl

/-- The transposed weight with its high 64 rows zeroed: entry `(k, o)`. -/
def wLow (W : SW.Idx → EReal) (k o : Fin 128) : EReal := if k.val < 64 then W (ix2 o k) else 0
/-- The transposed weight with its low 64 rows zeroed: entry `(k, o)`. -/
def wHigh (W : SW.Idx → EReal) (k o : Fin 128) : EReal := if k.val < 64 then 0 else W (ix2 o k)

/-- Two sums against complementary zero-padded weights are one sum against the whole weight, the factor chosen by the
    half the index falls in. No finiteness: `a · 0 = 0` for every extended real. -/
theorem sum_split_halves (h1 h2 w : Fin 128 → EReal) :
    (∑ k : Fin 128, h1 k * (if k.val < 64 then w k else 0)) + (∑ k : Fin 128, h2 k * (if k.val < 64 then 0 else w k))
      = ∑ k : Fin 128, (if k.val < 64 then h1 k else h2 k) * w k := by
  rw [← Finset.sum_add_distrib]
  refine Finset.sum_congr rfl fun k _ => ?_
  by_cases hk : k.val < 64
  · rw [if_pos hk, if_pos hk, if_pos hk, mul_zero, add_zero]
  · rw [if_neg hk, if_neg hk, if_neg hk, mul_zero, zero_add]

/-- The fused form is the layer: both full aggregations against the zero-padded weight halves, then the bias. -/
theorem fused_eq_layerAt (x : SX.Idx → EReal) (adj1 adj2 : SA.Idx → EReal) (W : SW.Idx → EReal) (b : SB.Idx → EReal)
    (r : Fin 10000) (o : Fin 128) :
    (∑ k : Fin 128, agg adj1 x r k * wLow W k o) + (∑ k : Fin 128, agg adj2 x r k * wHigh W k o) + b (ix1 o)
      = layerAt x adj1 adj2 W b r o := by
  unfold layerAt hiddenAt wLow wHigh
  rw [sum_split_halves (agg adj1 x r) (agg adj2 x r) (fun k => W (ix2 o k))]

end Cert.GraphLayer

end
-- ==== Proof.RefLayer.lean ====
/-
  The reference program's result is the layer.

  Its ten host operations, read one at a time at an index: the two column slices of `x` (columns 0–63 and 64–127), the
  two products `adj1 · x[:, :64]` and `adj2 · x[:, 64:]` as sums over the 10000 contracted rows, their concatenation
  along the column axis — column `k` is column `k` of the first product for `k < 64` and column `k − 64` of the
  second otherwise, so entry `(r, k)` is `hidden[r, k]` —, the product with the transposed weight as a sum over the
  128 hidden columns, and the bias broadcast over the rows.
-/
import proofs.«110590_g50706383897209_cont_8to1c4_452_21_alg».proof.Proof.Gen.ReferenceIdeal.Read
import proofs.«110590_g50706383897209_cont_8to1c4_452_21_alg».proof.Proof.Layer

noncomputable section

open scoped BigOperators

namespace Cert.ReferenceIdeal.RefValue

open Cert.ReferenceIdeal Cert.ReferenceIdeal.Gen Cert.ReferenceIdeal.Read Idealize.ShloMosaic Idealize.ShloMosaic.ValueIdx Cert.GraphLayer

/-- The concatenated hidden activation at `(r, k)`: the low half reads the first product, the high half the second,
    each a sum over the contracted row of the adjacency against the matching column of `x`. -/
theorem hidden_apply (x0 : SX.Idx → EReal) (x1 x2 : SA.Idx → EReal) (r : Fin 10000) (k : Fin 128) :
    val_main_v4 (F := Ideal) x0 x1 x2 (ix2 r k) = hiddenAt x0 x1 x2 r k := by
  unfold val_main_v4 hiddenAt
  by_cases hk : k.val < 64
  · rw [if_pos hk]
    refine (concatenate_pair_apply_left (t := S10000x128) (s₁ := S10000x64) (s₂ := S10000x64) (1 : Fin 2) _ _ concatenates_S10000x64_S10000x64_S10000x128_d1 (ix2 r k) rfl
      (ix2 r (⟨k.val, hk⟩ : Fin 64)) (fun b => by match b with | ⟨0, _⟩ => rfl | ⟨1, _⟩ => rfl)).trans ?_
    rw [val_main_v2_apply]
    unfold agg
    refine Finset.sum_congr rfl fun j _ => ?_
    rw [val_main_v0_apply]
    have el : lidx_main_v2 (ix2 r (⟨k.val, hk⟩ : Fin 64)) j = ix2 r j :=
      funext fun a => Fin.ext (by match a with | ⟨0, _⟩ => rfl | ⟨1, _⟩ => rfl)
    have er : idx_main_v0 (ridx_main_v2 (ix2 r (⟨k.val, hk⟩ : Fin 64)) j) = ix2 j k :=
      funext fun a => Fin.ext (by match a with | ⟨0, _⟩ => rfl | ⟨1, _⟩ => rfl)
    rw [el, er]
  · rw [if_neg hk]
    have hk' : k.val - 64 < 64 := by have := k.isLt; omega
    refine (concatenate_pair_apply_right (t := S10000x128) (s₁ := S10000x64) (s₂ := S10000x64) (1 : Fin 2) _ _ concatenates_S10000x64_S10000x64_S10000x128_d1 (ix2 r k) rfl rfl
      (ix2 r (⟨k.val - 64, hk'⟩ : Fin 64)) (fun b hb => by
        match b with
        | ⟨0, _⟩ => rfl
        | ⟨1, _⟩ => exact absurd rfl hb)
      (by show k.val - 64 + 64 = k.val; omega)).trans ?_
    rw [val_main_v3_apply]
    unfold agg
    refine Finset.sum_congr rfl fun j _ => ?_
    rw [val_main_v1_apply]
    have el : lidx_main_v3 (ix2 r (⟨k.val - 64, hk'⟩ : Fin 64)) j = ix2 r j :=
      funext fun a => Fin.ext (by match a with | ⟨0, _⟩ => rfl | ⟨1, _⟩ => rfl)
    have er : idx_main_v1 (ridx_main_v3 (ix2 r (⟨k.val - 64, hk'⟩ : Fin 64)) j) = ix2 j k :=
      funext fun a => Fin.ext (by
        match a with
        | ⟨0, _⟩ => rfl
        | ⟨1, _⟩ => show 64 + (k.val - 64) = k.val; omega)
    rw [el, er]

/-- The reference's last stage, index by index, is the layer. -/
theorem result_eq_layer (x0 : SX.Idx → EReal) (x1 x2 : SA.Idx → EReal) (x3 : SW.Idx → EReal) (x4 : SB.Idx → EReal) :
    val_main_v9 (F := Ideal) x0 x1 x2 x3 x4 = layer x0 x1 x2 x3 x4 := by
  funext i
  obtain ⟨r, o, rfl⟩ : ∃ (r : Fin 10000) (o : Fin 128), i = ix2 r o := ⟨i 0, i 1, eq_ix2 i⟩
  rw [layer_ix2, val_main_v9_apply, val_main_v6_apply, val_main_v8_apply, val_main_v7_apply]
  unfold layerAt
  refine congrArg₂ (fun a b : EReal => a + b) (Finset.sum_congr rfl fun k _ => ?_) ?_
  · rw [val_main_v5_apply]
    have el : lidx_main_v6 (ix2 r o) k = ix2 r k :=
      funext fun a => Fin.ext (by match a with | ⟨0, _⟩ => rfl | ⟨1, _⟩ => rfl)
    have er : idx_main_v5 (ridx_main_v6 (ix2 r o) k) = ix2 o k :=
      funext fun a => Fin.ext (by match a with | ⟨0, _⟩ => rfl | ⟨1, _⟩ => rfl)
    rw [el, er, hidden_apply]
  · exact congrArg x4 (funext fun a => Fin.ext (by match a with | ⟨0, _⟩ => rfl))

end Cert.ReferenceIdeal.RefValue

end
-- ==== Proof.PaddedWeights.lean ====
/-
  What the kernel's program prepares on the host before the grid runs, read at an index.

  Three small arrays are built from the weight and the bias and staged whole at every grid point:
  * the transposed weight's rows 0–63 stacked over 64 zero rows: entry `(k, o)` is `W[o, k]` for `k < 64`, else `0`;
  * 64 zero rows stacked over the transposed weight's rows 64–127: entry `(k, o)` is `0` for `k < 64`, else `W[o, k]`;
  * the bias as a single row: entry `(0, o)` is `b[o]`.
  A row of a stack of two 64-row pieces lies in the first piece when its number is below 64 and in the second, 64 less,
  otherwise; a slice of the transpose from row `s` reads row `s + k'`; the zero rows are a broadcast scalar, whose word
  denotes the real number 0.
-/
import proofs.«110590_g50706383897209_cont_8to1c4_452_21_alg».proof.Proof.Gen.KernelIdeal.Frame
import proofs.«110590_g50706383897209_cont_8to1c4_452_21_alg».proof.Proof.Layer
import Idealize.ShloMosaic.Lib.StableHlo.Run
import Idealize.ShloMosaic.Lib.Pipeline.Value
import Idealize.ShloMosaic.Lib.ValueLayout
import Idealize.ShloMosaic.PureOps.Ideal.Laws

noncomputable section

open scoped BigOperators

namespace Cert.KernelIdeal.Padded

open Cert.KernelIdeal Cert.KernelIdeal.Gen Idealize.ShloMosaic Idealize.ShloMosaic.TcCoe Idealize.SL.Sem
open Idealize.ShloMosaic.StableHlo Idealize.ShloMosaic.ValueIdx Cert.GraphLayer

/-- The transposed weight's low 64 rows over 64 zero rows, as the host operations compute it. -/
def lowPadded (W : S128x128.Idx → EReal) : S128x128.Idx → EReal :=
  concatenate S128x128 0 [⟨S64x128, extractStridedSlice S64x128 ![0, 0] (transpose S128x128 [1, 0] W transposes_S128x128_S128x128_1_0) slices_S128x128_S64x128_0_0⟩,
    ⟨S64x128, broadcastInDim S64x128 ![] bcast_S_S64x128 (constant (F := Ideal) S_ .f32 0x00000000#32)⟩] concatenates_S64x128_S64x128_S128x128_d0

/-- 64 zero rows over the transposed weight's high 64 rows, as the host operations compute it. -/
def highPadded (W : S128x128.Idx → EReal) : S128x128.Idx → EReal :=
  concatenate S128x128 0 [⟨S64x128, broadcastInDim S64x128 ![] bcast_S_S64x128 (constant (F := Ideal) S_ .f32 0x00000000#32)⟩,
    ⟨S64x128, extractStridedSlice S64x128 ![64, 0] (transpose S128x128 [1, 0] W transposes_S128x128_S128x128_1_0) slices_S128x128_S64x128_64_0⟩] concatenates_S64x128_S64x128_S128x128_d0

/-- A row of the zero block: the broadcast scalar's word denotes 0. -/
theorem zeroRows_apply (i : S64x128.Idx) :
    broadcastInDim S64x128 ![] bcast_S_S64x128 (constant (F := Ideal) S_ .f32 0x00000000#32) i = (0 : EReal) :=
  (broadcastInDim_apply _ bcast_S_S64x128 _ i ix0 (fun a => a.elim0)).trans Ideal.ofBits_zero_f32

/-- Entry `(k, o)` of the low-padded weight. -/
theorem lowPadded_apply (W : S128x128.Idx → EReal) (k o : Fin 128) : lowPadded W (ix2 k o) = wLow W k o := by
  unfold lowPadded wLow
  by_cases hk : k.val < 64
  · rw [if_pos hk]
    refine (concatenate_pair_apply_left (t := S128x128) (s₁ := S64x128) (s₂ := S64x128) (0 : Fin 2) _ _
      concatenates_S64x128_S64x128_S128x128_d0 (ix2 k o) rfl (ix2 (⟨k.val, hk⟩ : Fin 64) o)
      (fun b => by match b with | ⟨0, _⟩ => rfl | ⟨1, _⟩ => rfl)).trans ?_
    refine (slice2_axis0_apply 0 _ slices_S128x128_S64x128_0_0 (⟨k.val, hk⟩ : Fin 64) o k
      (by show k.val = 0 + k.val; omega)).trans ?_
    exact transpose_ix2_apply W transposes_S128x128_S128x128_1_0 k o
  · rw [if_neg hk]
    have hk' : k.val - 64 < 64 := by have := k.isLt; omega
    refine (concatenate_pair_apply_right (t := S128x128) (s₁ := S64x128) (s₂ := S64x128) (0 : Fin 2) _ _
      concatenates_S64x128_S64x128_S128x128_d0 (ix2 k o) rfl rfl (ix2 (⟨k.val - 64, hk'⟩ : Fin 64) o)
      (fun b hb => by
        match b with
        | ⟨0, _⟩ => exact absurd rfl hb
        | ⟨1, _⟩ => rfl)
      (by show k.val - 64 + 64 = k.val; omega)).trans ?_
    exact zeroRows_apply _

/-- Entry `(k, o)` of the high-padded weight. -/
theorem highPadded_apply (W : S128x128.Idx → EReal) (k o : Fin 128) : highPadded W (ix2 k o) = wHigh W k o := by
  unfold highPadded wHigh
  by_cases hk : k.val < 64
  · rw [if_pos hk]
    refine (concatenate_pair_apply_left (t := S128x128) (s₁ := S64x128) (s₂ := S64x128) (0 : Fin 2) _ _
      concatenates_S64x128_S64x128_S128x128_d0 (ix2 k o) rfl (ix2 (⟨k.val, hk⟩ : Fin 64) o)
      (fun b => by match b with | ⟨0, _⟩ => rfl | ⟨1, _⟩ => rfl)).trans ?_
    exact zeroRows_apply _
  · rw [if_neg hk]
    have hk' : k.val - 64 < 64 := by have := k.isLt; omega
    refine (concatenate_pair_apply_right (t := S128x128) (s₁ := S64x128) (s₂ := S64x128) (0 : Fin 2) _ _
      concatenates_S64x128_S64x128_S128x128_d0 (ix2 k o) rfl rfl (ix2 (⟨k.val - 64, hk'⟩ : Fin 64) o)
      (fun b hb => by
        match b with
        | ⟨0, _⟩ => exact absurd rfl hb
        | ⟨1, _⟩ => rfl)
      (by show k.val - 64 + 64 = k.val; omega)).trans ?_
    refine (slice2_axis0_apply 64 _ slices_S128x128_S64x128_64_0 (⟨k.val - 64, hk'⟩ : Fin 64) o k
      (by show k.val = 64 + (k.val - 64); omega)).trans ?_
    exact transpose_ix2_apply W transposes_S128x128_S128x128_1_0 k o

/-- Entry `(0, o)` of the bias laid out as one row. -/
theorem biasRow_apply (b : S128.Idx → EReal) (o : Fin 128) :
    shapeCast S1x128 b shapeCasts_S128_S1x128 (ix2 (0 : Fin 1) o) = b (ix1 o) :=
  shapeCast_a_1a_apply b shapeCasts_S128_S1x128 0 o

variable (m : (ℓ : Loc nD τ sig) → Buf (Elt Ideal) ℓ)

/-- When the grid starts, the fourth staged array is the low-padded weight of the launched weight. -/
theorem V_lowPadded (c : Dev nD) :
    (V m c main_call0_v3 : S128x128.Idx → EReal) = lowPadded (m ((c : Thread nD τ).loc main_arg3)) := by
  unfold lowPadded
  dsimp only [Gen.V, Gen.hostOps0]
  after_results
  rfl

/-- The fifth staged array is the high-padded weight. -/
theorem V_highPadded (c : Dev nD) :
    (V m c main_call0_v5 : S128x128.Idx → EReal) = highPadded (m ((c : Thread nD τ).loc main_arg3)) := by
  unfold highPadded
  dsimp only [Gen.V, Gen.hostOps0]
  after_results
  rfl

/-- The sixth staged array is the bias as one row. -/
theorem V_biasRow (c : Dev nD) :
    (V m c main_call0_v6 : S1x128.Idx → EReal) = shapeCast S1x128 (m ((c : Thread nD τ).loc main_arg4)) shapeCasts_S128_S1x128 := by
  dsimp only [Gen.V, Gen.hostOps0]
  after_results
  rfl

end Cert.KernelIdeal.Padded

end
-- ==== Proof.BlockValue.lean ====
/-
  What one grid step stores, read at an entry of its 200-row output block.

  From a 200-row block `a1`, `a2` of each adjacency matrix, the whole feature matrix `x`, the two zero-padded weight
  halves `w1`, `w2` and the bias row `brow`, the step stores
      (a1 · x) · w1 + (a2 · x) · w2 + brow (broadcast over the 200 rows).
  Each matrix product into a zero accumulator is, at an entry, the plain sum over the contracted axis of the operands'
  products; the identity shape casts change nothing; the one-row bias read at `(p, q)` is its entry `(0, q)`.
-/
import proofs.«110590_g50706383897209_cont_8to1c4_452_21_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

theorem aggregate_apply_lhs0 (i : S200x128.Idx) (c : dot_S200x10000_S10000x128_S200x128_1_0_0_1_n_n.contr.Idx) : (dot_S200x10000_S10000x128_S200x128_1_0_0_1_n_n.lhsIdx i c 0).val = (i 0).val := by
  unfold DotDims.lhsIdx
  rw [dif_neg (show ¬(0 : Fin S200x10000.rank) ∈ dot_S200x10000_S10000x128_S200x128_1_0_0_1_n_n.lhsBatch by decide),
    dif_pos (show (0 : Fin S200x10000.rank) ∈ dot_S200x10000_S10000x128_S200x128_1_0_0_1_n_n.lhsNonContracting by decide)]
  rfl
theorem aggregate_apply_lhs1 (i : S200x128.Idx) (c : dot_S200x10000_S10000x128_S200x128_1_0_0_1_n_n.contr.Idx) : (dot_S200x10000_S10000x128_S200x128_1_0_0_1_n_n.lhsIdx i c 1).val = (c ⟨0, by decide⟩).val :=
  dot_S200x10000_S10000x128_S200x128_1_0_0_1_n_n.lhsIdx_val_of_single rfl i c
theorem aggregate_apply_rhs0 (i : S200x128.Idx) (c : dot_S200x10000_S10000x128_S200x128_1_0_0_1_n_n.contr.Idx) : (dot_S200x10000_S10000x128_S200x128_1_0_0_1_n_n.rhsIdx i c 0).val = (c ⟨0, by decide⟩).val :=
  dot_S200x10000_S10000x128_S200x128_1_0_0_1_n_n.rhsIdx_val_of_single rfl i c
theorem aggregate_apply_rhs1 (i : S200x128.Idx) (c : dot_S200x10000_S10000x128_S200x128_1_0_0_1_n_n.contr.Idx) : (dot_S200x10000_S10000x128_S200x128_1_0_0_1_n_n.rhsIdx i c 1).val = (i 1).val := by
  unfold DotDims.rhsIdx
  rw [dif_neg (show ¬(1 : Fin S10000x128.rank) ∈ dot_S200x10000_S10000x128_S200x128_1_0_0_1_n_n.rhsBatch by decide),
    dif_pos (show (1 : Fin S10000x128.rank) ∈ dot_S200x10000_S10000x128_S200x128_1_0_0_1_n_n.rhsNonContracting by decide)]
  rfl

/-- A 200-row adjacency block times the feature matrix, into zero, at `(p, q)`: the sum over the 10000 nodes. -/
theorem aggregate_apply (a : FVec Ideal S200x10000 .f32) (x : FVec Ideal S10000x128 .f32) (p : Fin 200) (q : Fin 128) :
    matmul dot_S200x10000_S10000x128_S200x128_1_0_0_1_n_n none a x (constant S200x128 .f32 0x00000000#32) (ix2 p q)
      = ∑ j : Fin 10000, a (ix2 p j) * x (ix2 j q) := by
  simp only [matmul]
  rw [Ideal.matmul_constant_zero_apply, ← Equiv.sum_comp (contrEquiv1 dot_S200x10000_S10000x128_S200x128_1_0_0_1_n_n 10000 rfl rfl).symm]
  refine Finset.sum_congr rfl fun j _ => ?_
  have hj := contrEquiv1_symm_val dot_S200x10000_S10000x128_S200x128_1_0_0_1_n_n 10000 rfl rfl j
  have el : dot_S200x10000_S10000x128_S200x128_1_0_0_1_n_n.lhsIdx (ix2 p q) ((contrEquiv1 dot_S200x10000_S10000x128_S200x128_1_0_0_1_n_n 10000 rfl rfl).symm j) = ix2 p j :=
    funext fun ax => Fin.ext (by
      match ax with
      | ⟨0, _⟩ => exact aggregate_apply_lhs0 _ _
      | ⟨1, _⟩ => exact (aggregate_apply_lhs1 _ _).trans hj)
  have er : dot_S200x10000_S10000x128_S200x128_1_0_0_1_n_n.rhsIdx (ix2 p q) ((contrEquiv1 dot_S200x10000_S10000x128_S200x128_1_0_0_1_n_n 10000 rfl rfl).symm j) = ix2 j q :=
    funext fun ax => Fin.ext (by
      match ax with
      | ⟨0, _⟩ => exact (aggregate_apply_rhs0 _ _).trans hj
      | ⟨1, _⟩ => exact aggregate_apply_rhs1 _ _)
  rw [el, er]

theorem project_apply_lhs0 (i : S200x128.Idx) (c : dot_S200x128_S128x128_S200x128_1_0_0_1_n_n.contr.Idx) : (dot_S200x128_S128x128_S200x128_1_0_0_1_n_n.lhsIdx i c 0).val = (i 0).val := by
  unfold DotDims.lhsIdx
  rw [dif_neg (show ¬(0 : Fin S200x128.rank) ∈ dot_S200x128_S128x128_S200x128_1_0_0_1_n_n.lhsBatch by decide),
    dif_pos (show (0 : Fin S200x128.rank) ∈ dot_S200x128_S128x128_S200x128_1_0_0_1_n_n.lhsNonContracting by decide)]
  rfl
theorem project_apply_lhs1 (i : S200x128.Idx) (c : dot_S200x128_S128x128_S200x128_1_0_0_1_n_n.contr.Idx) : (dot_S200x128_S128x128_S200x128_1_0_0_1_n_n.lhsIdx i c 1).val = (c ⟨0, by decide⟩).val :=
  dot_S200x128_S128x128_S200x128_1_0_0_1_n_n.lhsIdx_val_of_single rfl i c
theorem project_apply_rhs0 (i : S200x128.Idx) (c : dot_S200x128_S128x128_S200x128_1_0_0_1_n_n.contr.Idx) : (dot_S200x128_S128x128_S200x128_1_0_0_1_n_n.rhsIdx i c 0).val = (c ⟨0, by decide⟩).val :=
  dot_S200x128_S128x128_S200x128_1_0_0_1_n_n.rhsIdx_val_of_single rfl i c
theorem project_apply_rhs1 (i : S200x128.Idx) (c : dot_S200x128_S128x128_S200x128_1_0_0_1_n_n.contr.Idx) : (dot_S200x128_S128x128_S200x128_1_0_0_1_n_n.rhsIdx i c 1).val = (i 1).val := by
  unfold DotDims.rhsIdx
  rw [dif_neg (show ¬(1 : Fin S128x128.rank) ∈ dot_S200x128_S128x128_S200x128_1_0_0_1_n_n.rhsBatch by decide),
    dif_pos (show (1 : Fin S128x128.rank) ∈ dot_S200x128_S128x128_S200x128_1_0_0_1_n_n.rhsNonContracting by decide)]
  rfl

/-- A 200-row aggregation times a 128×128 weight, into zero, at `(p, q)`: the sum over the 128 hidden columns. -/
theorem project_apply (a : FVec Ideal S200x128 .f32) (x : FVec Ideal S128x128 .f32) (p : Fin 200) (q : Fin 128) :
    matmul dot_S200x128_S128x128_S200x128_1_0_0_1_n_n none a x (constant S200x128 .f32 0x00000000#32) (ix2 p q)
      = ∑ j : Fin 128, a (ix2 p j) * x (ix2 j q) := by
  simp only [matmul]
  rw [Ideal.matmul_constant_zero_apply, ← Equiv.sum_comp (contrEquiv1 dot_S200x128_S128x128_S200x128_1_0_0_1_n_n 128 rfl rfl).symm]
  refine Finset.sum_congr rfl fun j _ => ?_
  have hj := contrEquiv1_symm_val dot_S200x128_S128x128_S200x128_1_0_0_1_n_n 128 rfl rfl j
  have el : dot_S200x128_S128x128_S200x128_1_0_0_1_n_n.lhsIdx (ix2 p q) ((contrEquiv1 dot_S200x128_S128x128_S200x128_1_0_0_1_n_n 128 rfl rfl).symm j) = ix2 p j :=
    funext fun ax => Fin.ext (by
      match ax with
      | ⟨0, _⟩ => exact project_apply_lhs0 _ _
      | ⟨1, _⟩ => exact (project_apply_lhs1 _ _).trans hj)
  have er : dot_S200x128_S128x128_S200x128_1_0_0_1_n_n.rhsIdx (ix2 p q) ((contrEquiv1 dot_S200x128_S128x128_S200x128_1_0_0_1_n_n 128 rfl rfl).symm j) = ix2 j q :=
    funext fun ax => Fin.ext (by
      match ax with
      | ⟨0, _⟩ => exact (project_apply_rhs0 _ _).trans hj
      | ⟨1, _⟩ => exact project_apply_rhs1 _ _)
  rw [el, er]

/-- The stored block at `(p, q)`: both aggregations projected through their weight halves, plus the bias entry. -/
theorem stored_apply (x : FVec Ideal S10000x128 .f32) (a1 a2 : FVec Ideal S200x10000 .f32)
    (w1 w2 : FVec Ideal S128x128 .f32) (brow : FVec Ideal S1x128 .f32) (p : Fin 200) (q : Fin 128) :
    k0_pay1 (F := Ideal) x a1 a2 w1 w2 brow (ix2 p q)
      = (∑ k : Fin 128, (∑ j : Fin 10000, a1 (ix2 p j) * x (ix2 j k)) * w1 (ix2 k q))
        + (∑ k : Fin 128, (∑ j : Fin 10000, a2 (ix2 p j) * x (ix2 j k)) * w2 (ix2 k q))
        + brow (ix2 (0 : Fin 1) q) := by
  unfold k0_pay1
  rw [shapeCast_self w1, shapeCast_self w2, shapeCast_self brow]
  show (_ + _) + _ = _
  refine congrArg₂ (fun u v : EReal => u + v) (congrArg₂ (fun u v : EReal => u + v) ?_ ?_) ?_
  · refine (project_apply _ w1 p q).trans (Finset.sum_congr rfl fun k _ => ?_)
    exact congrArg (fun u : EReal => u * w1 (ix2 k q)) (aggregate_apply a1 x p k)
  · refine (project_apply _ w2 p q).trans (Finset.sum_congr rfl fun k _ => ?_)
    exact congrArg (fun u : EReal => u * w2 (ix2 k q)) (aggregate_apply a2 x p k)
  · exact broadcastTo_1b_ab_apply brow broadcasts_S1x128_S200x128 p q

end Cert.KernelIdeal.BlockValue

end
-- ==== Proof.LayerRun.lean ====
/-
  The kernel's result array is the layer of the launched arguments.

  The grid has 50 steps; step `t` receives rows `200·t … 200·t + 199` of each adjacency matrix, the whole feature
  matrix, both padded weight halves and the bias row, and writes rows `200·t … 200·t + 199` of the result. At entry
  `(p, q)` of its block the step stores the fused form of the layer at row `r = 200·t + p`, column `q`
  (the block value, the padded weights read at an index, and the algebraic identity between the fused form and the
  layer). Row `r` of the result lies in the block of step `r / 200`, so the blocks cover the array, and the final
  array is the layer everywhere.
-/
import proofs.«110590_g50706383897209_cont_8to1c4_452_21_alg».proof.Proof.Gen.KernelIdeal.Value
import proofs.«110590_g50706383897209_cont_8to1c4_452_21_alg».proof.Proof.Layer
import proofs.«110590_g50706383897209_cont_8to1c4_452_21_alg».proof.Proof.PaddedWeights
import proofs.«110590_g50706383897209_cont_8to1c4_452_21_alg».proof.Proof.BlockValue

noncomputable section

open scoped BigOperators

namespace Cert.KernelIdeal.LayerValue

open Cert.KernelIdeal Cert.KernelIdeal.Gen Idealize.ShloMosaic Idealize.ShloMosaic.TcCoe Idealize.SL.Sem
open Idealize.ShloMosaic.Pipeline (Dat)
open Idealize.ShloMosaic.ValueIdx Cert.GraphLayer Cert.KernelIdeal.Padded Cert.KernelIdeal.BlockValue

variable (m : (ℓ : Loc nD τ sig) → Buf (Elt Ideal) ℓ) (ρ : Dev nD → PrngReg)

theorem origin : (![0, 0] : Fin 2 → Nat) = fun _ => 0 := funext fun a => by fin_cases a <;> rfl

/-- The printed index maps, decided over the 50 steps: the adjacency blocks and the output block move down one block
    per step, every other operand stays at its one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each staged block read at an entry -/

/-- Row `p` of step `t`'s block of the first adjacency matrix is row `200·t + p` of the matrix. -/
theorem adj1_block (c : Dev nD) (t : Fin cfg0.N) (p : Fin 200) (j : Fin 10000) (r : Fin 10000)
    (hr : r.val = t.val * 200 + p.val) :
    iblk m c 0 t (ix2 p j) = m ((c : Thread nD τ).loc main_arg1) (ix2 r j) := by
  obtain ⟨e0, e1, -⟩ := block_indices t
  show V m c main_arg1 (((cfg0.win 0).blk t).view.emb (ix2 p j)) = _
  rw [V_main_arg1]
  refine congrArg _ (funext fun a => Fin.ext ?_)
  match a with
  | ⟨0, _⟩ => show win0_0.index t (0 : Fin 2) * 200 + 1 * p.val = r.val; omega
  | ⟨1, _⟩ => show win0_0.index t (1 : Fin 2) * 10000 + 1 * j.val = j.val; omega

/-- The same for the second adjacency matrix. -/
theorem adj2_block (c : Dev nD) (t : Fin cfg0.N) (p : Fin 200) (j : Fin 10000) (r : Fin 10000)
    (hr : r.val = t.val * 200 + p.val) :
    iblk m c 1 t (ix2 p j) = m ((c : Thread nD τ).loc main_arg2) (ix2 r j) := by
  obtain ⟨-, -, e0, e1, -⟩ := block_indices t
  show V m c main_arg2 (((cfg0.win 1).blk t).view.emb (ix2 p j)) = _
  rw [V_main_arg2]
  refine congrArg _ (funext fun a => Fin.ext ?_)
  match a with
  | ⟨0, _⟩ => show win0_1.index t (0 : Fin 2) * 200 + 1 * p.val = r.val; omega
  | ⟨1, _⟩ => show win0_1.index t (1 : Fin 2) * 10000 + 1 * j.val = j.val; omega

/-- Every step sees the whole feature matrix. -/
theorem x_block (c : Dev nD) (t : Fin cfg0.N) (j : Fin 10000) (k : Fin 128) :
    iblk m c 2 t (ix2 j k) = m ((c : Thread nD τ).loc main_arg0) (ix2 j k) := by
  obtain ⟨-, -, -, -, e0, e1, -⟩ := block_indices t
  show V m c main_arg0 (((cfg0.win 2).blk t).view.emb (ix2 j k)) = _
  rw [V_main_arg0]
  refine congrArg _ (funext fun a => Fin.ext ?_)
  match a with
  | ⟨0, _⟩ => show win0_2.index t (0 : Fin 2) * 10000 + 1 * j.val = j.val; omega
  | ⟨1, _⟩ => show win0_2.index t (1 : Fin 2) * 128 + 1 * k.val = k.val; omega

/-- Every step sees the whole low-padded weight. -/
theorem wLow_block (c : Dev nD) (t : Fin cfg0.N) (k q : Fin 128) :
    iblk m c 3 t (ix2 k q) = wLow (m ((c : Thread nD τ).loc main_arg3)) k q := by
  obtain ⟨-, -, -, -, -, -, e0, e1, -⟩ := block_indices t
  show V m c main_call0_v3 (((cfg0.win 3).blk t).view.emb (ix2 k q)) = _
  refine (congrFun (V_lowPadded m c) _).trans ?_
  refine (congrArg (lowPadded (m ((c : Thread nD τ).loc main_arg3))) (funext fun a => Fin.ext ?_)).trans
    (lowPadded_apply _ k q)
  match a with
  | ⟨0, _⟩ => show win0_3.index t (0 : Fin 2) * 128 + 1 * k.val = k.val; omega
  | ⟨1, _⟩ => show win0_3.index t (1 : Fin 2) * 128 + 1 * q.val = q.val; omega

/-- Every step sees the whole high-padded weight. -/
theorem wHigh_block (c : Dev nD) (t : Fin cfg0.N) (k q : Fin 128) :
    iblk m c 4 t (ix2 k q) = wHigh (m ((c : Thread nD τ).loc main_arg3)) k q := by
  obtain ⟨-, -, -, -, -, -, -, -, e0, e1, -⟩ := block_indices t
  show V m c main_call0_v5 (((cfg0.win 4).blk t).view.emb (ix2 k q)) = _
  refine (congrFun (V_highPadded m c) _).trans ?_
  refine (congrArg (highPadded (m ((c : Thread nD τ).loc main_arg3))) (funext fun a => Fin.ext ?_)).trans
    (highPadded_apply _ k q)
  match a with
  | ⟨0, _⟩ => show win0_4.index t (0 : Fin 2) * 128 + 1 * k.val = k.val; omega
  | ⟨1, _⟩ => show win0_4.index t (1 : Fin 2) * 128 + 1 * q.val = q.val; omega

/-- Every step sees the bias row. -/
theorem bias_block (c : Dev nD) (t : Fin cfg0.N) (q : Fin 128) :
    iblk m c 5 t (ix2 (0 : Fin 1) q) = m ((c : Thread nD τ).loc main_arg4) (ix1 q) := by
  obtain ⟨-, -, -, -, -, -, -, -, -, -, e0, e1, -⟩ := block_indices t
  show V m c main_call0_v6 (((cfg0.win 5).blk t).view.emb (ix2 (0 : Fin 1) q)) = _
  refine (congrFun (V_biasRow m c) _).trans ?_
  refine (congrArg (shapeCast S1x128 (m ((c : Thread nD τ).loc main_arg4)) shapeCasts_S128_S1x128)
    (funext fun a => Fin.ext ?_)).trans (biasRow_apply _ q)
  match a with
  | ⟨0, _⟩ => show win0_5.index t (0 : Fin 2) * 1 + 1 * 0 = 0; omega
  | ⟨1, _⟩ => show win0_5.index t (1 : Fin 2) * 128 + 1 * q.val = q.val; omega

/-! ## One entry of one step's block -/

/-- The stored value at `(p, q)` is the layer at `(r, q)` whenever the operands at the entries it reads are the
    arguments' rows `r`, the whole feature matrix, the padded weights and the bias. -/
theorem entry_value (X : SX.Idx → EReal) (A1 A2 : SA.Idx → EReal) (Wt : SW.Idx → EReal) (B : SB.Idx → EReal)
    (x : FVec Ideal S10000x128 .f32) (a1 a2 : FVec Ideal S200x10000 .f32) (w1 w2 : FVec Ideal S128x128 .f32)
    (brow : FVec Ideal S1x128 .f32) (r : Fin 10000) (p : Fin 200) (q : Fin 128)
    (hx : ∀ (j : Fin 10000) (k : Fin 128), x (ix2 j k) = X (ix2 j k))
    (ha1 : ∀ j : Fin 10000, a1 (ix2 p j) = A1 (ix2 r j))
    (ha2 : ∀ j : Fin 10000, a2 (ix2 p j) = A2 (ix2 r j))
    (hw1 : ∀ k : Fin 128, w1 (ix2 k q) = wLow Wt k q)
    (hw2 : ∀ k : Fin 128, w2 (ix2 k q) = wHigh Wt k q)
    (hb : brow (ix2 (0 : Fin 1) q) = B (ix1 q)) :
    k0_pay1 (F := Ideal) x a1 a2 w1 w2 brow (ix2 p q) = layerAt X A1 A2 Wt B r q := by
  rw [stored_apply, ← fused_eq_layerAt, hb]
  unfold agg
  simp only [hx, ha1, ha2, hw1, hw2]

/-! ## From the blocks to the array -/

/-- What step `t` writes back is block `t` of the layer of the launched arguments. -/
theorem flushed_eq (c : Dev nD) (t : Fin cfg0.N) :
    (dats m 0 c).flushed 6 t = ((cfg0.win 6).blk t).view.read (Elt Ideal)
      (layer (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed6]
  unfold out0_6
  rw [View.canon_unit_zero origin]
  simp only [View.ld_unit_zero (S := S10000x128) origin, View.ld_unit_zero (S := S200x10000) origin,
    View.ld_unit_zero (S := S128x128) origin, View.ld_unit_zero (S := S1x128) origin]
  obtain ⟨-, -, -, -, -, -, -, -, -, -, -, -, e0, e1⟩ := block_indices t
  have hN : t.val < 50 := Nat.lt_of_lt_of_eq t.isLt N_0
  funext y
  obtain ⟨p, q, rfl⟩ : ∃ (p : Fin 200) (q : Fin 128), y = ix2 p q := ⟨y 0, y 1, eq_ix2 y⟩
  have hp : p.val < 200 := p.isLt
  have hemb : ((cfg0.win 6).blk t).view.emb (ix2 p q) = ix2 (⟨t.val * 200 + p.val, by omega⟩ : Fin 10000) q :=
    funext fun a => Fin.ext (by
      match a with
      | ⟨0, _⟩ => show win0_6.index t (0 : Fin 2) * 200 + 1 * p.val = t.val * 200 + p.val; omega
      | ⟨1, _⟩ => show win0_6.index t (1 : Fin 2) * 128 + 1 * q.val = q.val; omega)
  show k0_pay1 (F := Ideal) (iblk m c 2 t) (iblk m c 0 t) (iblk m c 1 t) (iblk m c 3 t) (iblk m c 4 t) (iblk m c 5 t) (ix2 p q)
    = layer _ _ _ _ _ (((cfg0.win 6).blk t).view.emb (ix2 p q))
  rw [hemb, layer_ix2]
  exact entry_value _ _ _ _ _ (iblk m c 2 t) (iblk m c 0 t) (iblk m c 1 t) (iblk m c 3 t) (iblk m c 4 t) (iblk m c 5 t)
    (⟨t.val * 200 + p.val, by omega⟩ : Fin 10000) p q
    (fun j k => x_block m c t j k) (fun j => adj1_block m c t p j _ rfl) (fun j => adj2_block m c t p j _ rfl)
    (fun k => wLow_block m c t k q) (fun k => wHigh_block m c t k q) (bias_block m c t q)

/-- An index of the result lies in step `t`'s block iff each coordinate lies in the block's range on its axis. -/
theorem mem_block (t : Fin cfg0.N) (i : S10000x128.Idx) :
    i ∈ ((cfg0.win 6).blk t).view.set ↔ ∀ a : Fin 2, win0_6.index t a * S200x128.size a ≤ (i a).val ∧ (i a).val < win0_6.index t a * S200x128.size a + S200x128.size a := by
  show i ∈ ((View.whole main_v0).slice (win0_6.rect t)).set ↔ _
  rw [View.set_slice_whole, Rect.mem_set_unit]
  exact Iff.rfl

/-- Row `r` lies in the block of step `r / 200`: the 50 blocks cover the result. -/
theorem covered (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  let t : Fin cfg0.N := Fin.cast N_0.symm (⟨(i 0).val / 200, by omega⟩ : Fin 50)
  have ht : t.val = (i 0).val / 200 := rfl
  obtain ⟨-, -, -, -, -, -, -, -, -, -, -, -, e0, e1⟩ := block_indices t
  refine ⟨t, flush0_6 t, ?_⟩
  rw [mem_block]
  intro a
  match a with
  | ⟨0, _⟩ => show win0_6.index t (0 : Fin 2) * 200 ≤ (i 0).val ∧ (i 0).val < win0_6.index t (0 : Fin 2) * 200 + 200; omega
  | ⟨1, _⟩ => show win0_6.index t (1 : Fin 2) * 128 ≤ (i 1).val ∧ (i 1).val < win0_6.index t (1 : Fin 2) * 128 + 128; omega

/-- The result array after the run is the layer of the launched arguments. -/
theorem final (c : Dev nD) :
    (dats m 0 c).arrAt 6 cfg0.N = layer (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 6 _ (fun t _ => flushed_eq m c t) covered

/-- Every weakly fair execution of the kernel's program ends with the result at the layer of the arguments and the
    arguments unchanged. -/
theorem run : θ_run defs (onTc (τ := τ) (main (F := Ideal))) ⟨m, fun _ => 0, ρ⟩ fun r => ∀ c : Dev nD,
      r.2.mem ((c : Thread nD τ).loc main_v0) = layer (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.LayerValue

end
-- ==== Proof.lean ====
/-
  A two-graph convolution layer: the fused, row-blocked kernel against the plain formula.

  For node features `x : [10000, 128]`, adjacency matrices `adj1 adj2 : [10000, 10000]`, a weight `W : [128, 128]`
  and a bias `b : [128]` the reference computes
      out = concat(adj1 · x[:, :64], adj2 · x[:, 64:]) · Wᵀ + b.
  The kernel walks 50 blocks of 200 rows; on each it forms BOTH full products `adj1 · x` and `adj2 · x` and
  multiplies them by the transposed weight with its high, resp. low, 64 rows replaced by zeros, then adds the bias:
      out = (adj1 · x) · W₁ + (adj2 · x) · W₂ + b.
  On the extended reals the two agree entry by entry, with no use of the finiteness precondition: a product with a
  zero weight entry is zero whatever the other factor, and sums over one finite index set add termwise, so the unused
  half of each full product drops out (`Cert.GraphLayer.fused_eq_layerAt`).

  Both programs are shown to end at the one function `Cert.GraphLayer.layer` of the arguments: the kernel through
  the value each grid step stores and the cover of the result by the 50 blocks, the reference through its ten host
  operations read at an index. The three frame claims are the programs' runs with the result forgotten; the kernel and
  its idealization are the same text, so nothing is owed for that conjunct.
-/
import proofs.«110590_g50706383897209_cont_8to1c4_452_21_alg».proof.Defs
import proofs.«110590_g50706383897209_cont_8to1c4_452_21_alg».proof.Proof.Gen.Kernel
import proofs.«110590_g50706383897209_cont_8to1c4_452_21_alg».proof.Proof.Gen.Kernel.Skeleton
import proofs.«110590_g50706383897209_cont_8to1c4_452_21_alg».proof.Proof.Gen.Kernel.Launch
import proofs.«110590_g50706383897209_cont_8to1c4_452_21_alg».proof.Proof.Gen.Kernel.Points
import proofs.«110590_g50706383897209_cont_8to1c4_452_21_alg».proof.Proof.Gen.Kernel.Frame
import proofs.«110590_g50706383897209_cont_8to1c4_452_21_alg».proof.Proof.Gen.KernelIdeal
import proofs.«110590_g50706383897209_cont_8to1c4_452_21_alg».proof.Proof.Gen.KernelIdeal.Skeleton
import proofs.«110590_g50706383897209_cont_8to1c4_452_21_alg».proof.Proof.Gen.KernelIdeal.Launch
import proofs.«110590_g50706383897209_cont_8to1c4_452_21_alg».proof.Proof.Gen.KernelIdeal.Points
import proofs.«110590_g50706383897209_cont_8to1c4_452_21_alg».proof.Proof.Gen.KernelIdeal.Frame
import proofs.«110590_g50706383897209_cont_8to1c4_452_21_alg».proof.Proof.Gen.ReferenceIdeal
import proofs.«110590_g50706383897209_cont_8to1c4_452_21_alg».proof.Proof.Gen.KernelIdeal.Value
import proofs.«110590_g50706383897209_cont_8to1c4_452_21_alg».proof.Proof.Gen.ReferenceIdeal.Run
import proofs.«110590_g50706383897209_cont_8to1c4_452_21_alg».proof.Proof.Gen.ReferenceIdeal.Read
import proofs.«110590_g50706383897209_cont_8to1c4_452_21_alg».proof.Proof.Gen.Pre_finite_inputs
import Idealize.ShloMosaic.Adequacy
import Idealize.ShloMosaic.Init

import proofs.«110590_g50706383897209_cont_8to1c4_452_21_alg».proof.Proof.Layer
import proofs.«110590_g50706383897209_cont_8to1c4_452_21_alg».proof.Proof.RefLayer
import proofs.«110590_g50706383897209_cont_8to1c4_452_21_alg».proof.Proof.LayerRun

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments both programs end with the layer of those arguments as their
    result: the kernel by the cover of the result by its row blocks, the reference by its operations read at an
    index. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v9_eq _ _ _ _ _).trans
    (Cert.ReferenceIdeal.RefValue.result_eq_layer _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
